-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S1024x256_S1024 : S1024x256.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x8192, .f32⟩
  | .hbm, ⟨3, _⟩ => ⟨S8192x8192, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  transposes_S8192x256_S256x8192_1_0 : S8192x256.Transposes [1, 0] S256x8192
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.PairKernel.lean ====
/-
  The function both programs compute, stated once and free of either program.

  For two arrays `x`, `y` of 8192 rows of 256 extended reals, entry `(p, q)` of the result depends on row `p` of `x` and
  row `q` of `y` only, through three inner products: `a = ⟨x_p, x_p⟩`, `b = ⟨y_q, y_q⟩` and `s = ⟨x_p, y_q⟩`. The entry is
      exp (c₋ · max ((a + b) − c₂ · s, c₀)) + c₁₀ · ((s + c₁) · ((s + c₁) · (s + c₁)))
  where `c₋, c₂, c₀, c₁, c₁₀` are the values of the five binary32 words the two programs share (−1/2, 2, 0, 1 and the
  binary32 nearest 1/10). The words are kept as words: the same word denotes the same extended real on both sides, so none of
  them is ever evaluated. The first summand is a Gaussian of the squared distance `|x_p − y_q|²` written in its expanded
  form and clamped at zero; the second a cubic of the inner product.
-/
import Idealize.ShloMosaic.PureOps.Ideal
import Idealize.ShloMosaic.Lib.ValueIdx

noncomputable section

namespace Cert.PairKernel

open Idealize.ShloMosaic Idealize.ShloMosaic.ValueIdx

/-- The inner product of two rows of 256 extended reals. -/
def dot (u v : Fin 256 → EReal) : EReal := ∑ k : Fin 256, u k * v k

/-- Row `r` of an array of rows of length 256. -/
def row {n : Nat} (x : (⟨2, ![n, 256]⟩ : Shape).Idx → EReal) (r : Fin n) : Fin 256 → EReal := fun k => x (ix2 r k)

/-- The entry as a function of the two squared norms `a`, `b` and the inner product `s`: the clamped Gaussian of
    `a + b − 2 s` plus a tenth of the cube of `s + 1`, the cube grouped as `t · (t · t)`. -/
def entry (a b s : EReal) : EReal :=
  Ideal.exp (Ideal.ofBits .f32 0xBF000000#32 * max (a + b - Ideal.ofBits .f32 0x40000000#32 * s) (Ideal.ofBits .f32 0x00000000#32))
    + Ideal.ofBits .f32 0x3DCCCCCD#32
      * ((s + Ideal.ofBits .f32 0x3F800000#32) * ((s + Ideal.ofBits .f32 0x3F800000#32) * (s + Ideal.ofBits .f32 0x3F800000#32)))

/-- The cube may be grouped either way: multiplication of extended reals is commutative (no finiteness is needed). -/
theorem cube_comm (t : EReal) : t * t * t = t * (t * t) := mul_comm (t * t) t

/-- Entry `(p, q)` from rows of any two arrays of rows of length 256 (a block of rows is such an array too). -/
def pair {n n' : Nat} (x : (⟨2, ![n, 256]⟩ : Shape).Idx → EReal) (y : (⟨2, ![n', 256]⟩ : Shape).Idx → EReal)
    (p : Fin n) (q : Fin n') : EReal :=
  entry (dot (row x p) (row x p)) (dot (row y q) (row y q)) (dot (row x p) (row y q))

/-- The whole result: entry `(i 0, i 1)` of the 8192 × 8192 array. -/
def G (x y : (⟨2, ![8192, 256]⟩ : Shape).Idx → EReal) : (⟨2, ![8192, 8192]⟩ : Shape).Idx → EReal :=
  fun i => pair x y ⟨(i 0).val, (i 0).isLt⟩ ⟨(i 1).val, (i 1).isLt⟩

theorem G_ix2 (x y : (⟨2, ![8192, 256]⟩ : Shape).Idx → EReal) (p q : Fin 8192) : G x y (ix2 p q) = pair x y p q := rfl

end Cert.PairKernel

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.BlockEntry.lean ====
/-
  The kernel body's value at one entry of its output block.

  The body loads a block `x0` of 1024 rows of `x` and a block `x1` of 1024 rows of `y` and stores one 1024 × 1024 value.
  Read at entry `(p, q)` on the extended reals it is `PairKernel.pair x0 x1 p q`:
  * the matrix product into a zero accumulator, contracting the second axis of both operands, is the inner product of row
    `p` of `x0` with row `q` of `x1` (the change of float format in front of it is the identity on the extended reals);
  * the lane sum of `x0 * x0`, recast as a column and broadcast along the rows, is the squared norm of row `p` of `x0`,
    whatever `q`;
  * the lane sum of `x1 * x1`, recast as a row and broadcast down the columns, is the squared norm of row `q` of `x1`,
    whatever `p`;
  * everything after that is pointwise and is the scalar law `PairKernel.entry` verbatim.
-/
import proofs.«145799_j65481071409204_1_alg».proof.Proof.Gen.KernelIdeal.Skeleton
import proofs.«145799_j65481071409204_1_alg».proof.Proof.PairKernel
import proofs.«145799_j65481071409204_1_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.PairKernel.Body

open Cert.KernelIdeal Cert.KernelIdeal.Gen Idealize.ShloMosaic Idealize.ShloMosaic.ValueIdx Cert.PairKernel Cert.LibColumnLayout

/-! ## The three non-pointwise pieces of the body, named -/

variable {F : FTy → Type} [FloatOps F]

/-- The matrix product of the two loaded blocks, as the body computes it. -/
def gram (x0 x1 : Vec F S1024x256 .f32) : FVec F S1024x1024 .f32 :=
  matmul dot_S1024x256_S1024x256_S1024x1024_1_1_0_0_n_n none (truncf .bf16 x0 bitsLt_bf16_f32) (truncf .bf16 x1 bitsLt_bf16_f32)
    (constant S1024x1024 .f32 0x00000000#32)

/-- The lane sums of the squares of a block's rows. -/
def rowSq (x : Vec F S1024x256 .f32) : FVec F S1024 .f32 :=
  multiReduction .add [1] S1024 (mulf x x) 0x00000000#32 reduces_S1024x256_S1024 (.inl rfl) rfl

/-- Those sums as a column repeated along every row. -/
def sqCol (x0 : Vec F S1024x256 .f32) : FVec F S1024x1024 .f32 :=
  broadcastTo S1024x1024 (shapeCast S1024x1 (rowSq x0) shapeCasts_S1024_S1024x1) broadcasts_S1024x1_S1024x1024

/-- Those sums as a row repeated down every column. -/
def sqRow (x1 : Vec F S1024x256 .f32) : FVec F S1024x1024 .f32 :=
  broadcastTo S1024x1024 (shapeCast S1x1024 (rowSq x1) shapeCasts_S1024_S1x1024) broadcasts_S1x1024_S1024x1024

/-! ## Each piece at an entry, on the extended reals -/

theorem rowSq_apply (x : Vec Ideal S1024x256 .f32) (r : Fin 1024) :
    rowSq (F := Ideal) x (ix1 r) = dot (row x r) (row x r) := by
  unfold rowSq
  refine (Ideal.multiReduction_add_single (mulf x x) 0x00000000#32 reduces_S1024x256_S1024 (.inl rfl) rfl (ix1 r)).trans ?_
  unfold dot row
  refine Finset.sum_congr rfl fun k _ => ?_
  show x _ * x _ = x _ * x _
  have e : reduces_S1024x256_S1024.lift (ix1 r) k = ix2 r k :=
    funext fun a => Fin.ext (by match a with | ⟨0, _⟩ => rfl | ⟨1, _⟩ => rfl)
  rw [e]
  rfl

theorem sqCol_apply (x0 : Vec Ideal S1024x256 .f32) (p q : Fin 1024) :
    sqCol (F := Ideal) x0 (ix2 p q) = dot (row x0 p) (row x0 p) := by
  unfold sqCol
  refine (broadcastTo_a1_ab_apply _ broadcasts_S1024x1_S1024x1024 p q).trans ?_
  refine (shapeCast_a_a1_apply _ shapeCasts_S1024_S1024x1 p 0).trans ?_
  exact rowSq_apply x0 p

theorem sqRow_apply (x1 : Vec Ideal S1024x256 .f32) (p q : Fin 1024) :
    sqRow (F := Ideal) x1 (ix2 p q) = dot (row x1 q) (row x1 q) := by
  unfold sqRow
  refine (broadcastTo_1b_ab_apply _ broadcasts_S1x1024_S1024x1024 p q).trans ?_
  refine (shapeCast_a_1a_apply _ shapeCasts_S1024_S1x1024 0 q).trans ?_
  exact rowSq_apply x1 q

theorem lhs_gram_0 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

theorem rhs_gram_0 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

theorem gram_apply (x0 x1 : Vec Ideal S1024x256 .f32) (p q : Fin 1024) :
    gram (F := Ideal) x0 x1 (ix2 p q) = dot (row x0 p) (row x1 q) := by
  unfold gram
  refine (Ideal.matmul_constant_zero_apply dot_S1024x256_S1024x256_S1024x1024_1_1_0_0_n_n none _ _ (ix2 p q)).trans ?_
  rw [← Equiv.sum_comp (contrEquiv1 dot_S1024x256_S1024x256_S1024x1024_1_1_0_0_n_n 256 rfl rfl).symm]
  unfold dot row
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k := funext fun a => Fin.ext (by
    match a with
    | ⟨0, _⟩ => exact lhs_gram_0 _ _
    | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k := funext fun a => Fin.ext (by
    match a with
    | ⟨0, _⟩ => exact rhs_gram_0 _ _
    | ⟨1, _⟩ => exact (dot_S1024x256_S1024x256_S1024x1024_1_1_0_0_n_n.rhsIdx_val_of_single rfl _ _).trans hk)
  rw [el, er]
  rfl

/-! ## The body's value at an entry -/

/-- The stored value at entry `(p, q)` of the block is the pair law of row `p` of the first loaded block and row `q` of the
    second: the pointwise tail of the body is the scalar law applied to the three pieces above. -/
theorem pay_apply (x0 x1 : Vec Ideal S1024x256 .f32) (p q : Fin 1024) :
    k0_pay1 (F := Ideal) x0 x1 (ix2 p q) = pair x0 x1 p q := by
  show entry (sqCol (F := Ideal) x0 (ix2 p q)) (sqRow (F := Ideal) x1 (ix2 p q)) (gram (F := Ideal) x0 x1 (ix2 p q)) = _
  rw [sqCol_apply, sqRow_apply, gram_apply]
  rfl

end Cert.PairKernel.Body

end
-- ==== Proof.BlockCover.lean ====
/-
  From blocks to the whole array: after the kernel's run its result array is `PairKernel.G` of the two argument arrays.

  The grid has 8 × 8 points. At point `t`, with output block index `(bi, bj)`, the first input block is rows
  `1024·bi … 1024·bi + 1023` of `x` (block index `(bi, 0)`), the second input block rows `1024·bj … 1024·bj + 1023` of `y`
  (block index `(bj, 0)`), and the output block is rows `1024·bi …`, columns `1024·bj …` of the result. Entry `(p, q)` of what
  the point writes back is the pair law of row `p` of the first block and row `q` of the second, that is of row
  `1024·bi + p` of `x` and row `1024·bj + q` of `y`: the block of `G` at that point. Every index `(r, s)` of the result lies in
  the block of the point with `bi = r / 1024`, `bj = s / 1024`, so the blocks cover the array and it ends holding `G`.
-/
import proofs.«145799_j65481071409204_1_alg».proof.Proof.Gen.KernelIdeal.Value
import proofs.«145799_j65481071409204_1_alg».proof.Proof.BlockEntry
import Idealize.ShloMosaic.Lib.Pipeline.Value

set_option maxRecDepth 16384

noncomputable section

namespace Cert.PairKernel.Blocks

open Cert.KernelIdeal Cert.KernelIdeal.Gen Idealize.ShloMosaic Idealize.ShloMosaic.TcCoe Idealize.SL.Sem
open Idealize.ShloMosaic.ValueIdx Cert.PairKernel
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The pair law sees its two arrays only through the two rows it names. -/
theorem pair_of_rows {n n' k k' : Nat} (X : (⟨2, ![n, 256]⟩ : Shape).Idx → EReal) (Y : (⟨2, ![n', 256]⟩ : Shape).Idx → EReal)
    (x0 : (⟨2, ![k, 256]⟩ : Shape).Idx → EReal) (x1 : (⟨2, ![k', 256]⟩ : Shape).Idx → EReal)
    (p : Fin k) (q : Fin k') (P : Fin n) (Q : Fin n')
    (h0 : ∀ j : Fin 256, x0 (ix2 p j) = X (ix2 P j)) (h1 : ∀ j : Fin 256, x1 (ix2 q j) = Y (ix2 Q j)) :
    pair x0 x1 p q = pair X Y P Q := by
  have r0 : row x0 p = row X P := funext h0
  have r1 : row x1 q = row Y Q := funext h1
  unfold pair
  rw [r0, r1]

/-- The printed index maps, decided over the 64 grid points: the first input window follows the output's row block, the
    second input window the output's column block, both at column block 0, and the output's block indices stay below 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every pair of block indices below 8 is some grid point's. -/
theorem index_onto : ∀ (b0 b1 : Fin 8), ∃ t : Fin cfg0.N, win0_2.index t = ![b0.val, b1.val] :=
  (by decide +kernel : ∀ (b0 b1 : Fin 8), ∃ t : Fin grid0.N, win0_2.index t = ![b0.val, b1.val])

/-- What point `t` writes back is block `t` of `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  rw [Cert.KernelIdeal.Value.flushed2]
  unfold out0_2
  rw [View.canon_unit_zero origin]
  simp only [View.ld_unit_zero (S := S1024x256) origin]
  obtain ⟨e0, e1, e2, e3, e4, e5⟩ := index_facts t
  funext j
  show k0_pay1 (F := Ideal) (iblk m c 0 t) (iblk m c 1 t) j = G (V m c main_arg0) (V m c main_arg1) (((cfg0.win 2).blk t).view.emb j)
  obtain ⟨p, q, rfl⟩ : ∃ (p q : Fin 1024), j = ix2 p q := ⟨j 0, j 1, eq_ix2 j⟩
  refine (Body.pay_apply (iblk m c 0 t) (iblk m c 1 t) p q).trans ?_
  refine pair_of_rows (V m c main_arg0) (V m c main_arg1) (iblk m c 0 t) (iblk m c 1 t) p q _ _ (fun k => ?_) (fun k => ?_)
  · show V m c main_arg0 (((cfg0.win 0).blk t).view.emb (ix2 p k)) = _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 256 + 1 * k.val = k.val
      omega
  · show V m c main_arg1 (((cfg0.win 1).blk t).view.emb (ix2 q k)) = _
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 256 + 1 * k.val = k.val
      omega

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The blocks cover the result: index `(r, s)` is in the block of the point with block indices `(r / 1024, s / 1024)`. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is `G` of the two arguments as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, read: the result array ends at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.PairKernel.Blocks

end
-- ==== Proof.RefEntry.lean ====
/-
  The reference's result, one host operation at a time, is `PairKernel.G` of its two arguments.

  Read at entry `(p, q)` on the extended reals:
  * the general dot product of `x` with the transpose of `y`, contracting the second axis of `x` against the first axis of
    the transpose, is the inner product of row `p` of `x` with row `q` of `y` — the transpose only swaps the two coordinates
    at which `y` is read;
  * the host sum of `x * x` along the second axis, started from the zero word, broadcast to a column and then along the
    rows, is the squared norm of row `p` of `x`; the same for `y`, broadcast to a row and then down the columns, is the
    squared norm of row `q` of `y`;
  * the remaining operations are pointwise and spell the scalar law `PairKernel.entry`, except that the cube of `s + 1` is
    grouped `(t · t) · t` where the law groups it `t · (t · t)`: equal by commutativity of the product.
-/
import proofs.«145799_j65481071409204_1_alg».proof.Proof.Gen.ReferenceIdeal.Read
import proofs.«145799_j65481071409204_1_alg».proof.Proof.PairKernel
import Idealize.ShloMosaic.PureOps.Ideal.Laws
import Idealize.ShloMosaic.Lib.ValueIdx

noncomputable section

namespace Cert.PairKernel.Ref

open Cert.ReferenceIdeal Cert.ReferenceIdeal.Gen Cert.ReferenceIdeal.Read Idealize.ShloMosaic Idealize.ShloMosaic.ValueIdx Cert.PairKernel

/-- The dot product with the transposed second argument, at `(p, q)`: the inner product of row `p` and row `q`. -/
theorem gram_apply (x y : (⟨S8192x256, .f32⟩ : BufTy).Contents (Elt Ideal)) (p q : Fin 8192) :
    val_main_v1 (F := Ideal) x y (ix2 p q) = dot (row x p) (row y q) := by
  rw [val_main_v1_apply]
  unfold dot row
  refine Finset.sum_congr rfl fun k _ => ?_
  rw [val_main_v0_apply]
  have el : lidx_main_v1 (ix2 p q) k = ix2 p k := funext fun a => by match a with | ⟨0, _⟩ => rfl | ⟨1, _⟩ => rfl
  have er : idx_main_v0 (ridx_main_v1 (ix2 p q) k) = ix2 q k := funext fun a => by match a with | ⟨0, _⟩ => rfl | ⟨1, _⟩ => rfl
  rw [el, er]

/-- The row sums of `x * x`, as a column broadcast along the rows, at `(p, q)`: the squared norm of row `p`. -/
theorem sqCol_apply (x : (⟨S8192x256, .f32⟩ : BufTy).Contents (Elt Ideal)) (p q : Fin 8192) :
    val_main_v8 (F := Ideal) x (ix2 p q) = dot (row x p) (row x p) := by
  rw [val_main_v8_apply, val_main_v4_apply, val_main_v3_apply, val_main_cst_apply, Ideal.ofBits_def, Ideal.ofBits_zero_f32, zero_add]
  unfold dot row
  refine Finset.sum_congr rfl fun k _ => ?_
  rw [val_main_v2_apply, Ideal.mulf_def]
  have e : idx_main_v3 (idx_main_v4 (idx_main_v8 (ix2 p q))) k = ix2 p k :=
    funext fun a => by match a with | ⟨0, _⟩ => rfl | ⟨1, _⟩ => rfl
  rw [e]

/-- The row sums of `y * y`, as a row broadcast down the columns, at `(p, q)`: the squared norm of row `q`. -/
theorem sqRow_apply (y : (⟨S8192x256, .f32⟩ : BufTy).Contents (Elt Ideal)) (p q : Fin 8192) :
    val_main_v9 (F := Ideal) y (ix2 p q) = dot (row y q) (row y q) := by
  rw [val_main_v9_apply, val_main_v7_apply, val_main_v6_apply, val_main_cst_0_apply, Ideal.ofBits_def, Ideal.ofBits_zero_f32, zero_add]
  unfold dot row
  refine Finset.sum_congr rfl fun k _ => ?_
  rw [val_main_v5_apply, Ideal.mulf_def]
  have e : idx_main_v6 (idx_main_v7 (idx_main_v9 (ix2 p q))) k = ix2 q k :=
    funext fun a => by match a with | ⟨0, _⟩ => rfl | ⟨1, _⟩ => rfl
  rw [e]

/-- The reference's last stage at `(p, q)` is the pair law of row `p` of `x` and row `q` of `y`. -/
theorem result_apply (x y : (⟨S8192x256, .f32⟩ : BufTy).Contents (Elt Ideal)) (p q : Fin 8192) :
    val_main_v25 (F := Ideal) x y (ix2 p q) = pair x y p q := by
  simp only [val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply,
    val_main_cst_1_apply, val_main_cst_2_apply, val_main_cst_3_apply, val_main_cst_4_apply, val_main_cst_5_apply,
    gram_apply, sqCol_apply, sqRow_apply,
    Ideal.addf_def, Ideal.subf_def, Ideal.mulf_def, Ideal.maximumf_def, Ideal.hostUnary_exp_def, Ideal.ofBits_def]
  unfold pair entry
  rw [cube_comm]

/-- The reference's last stage is `G` of its arguments. -/
theorem result_eq (x y : (⟨S8192x256, .f32⟩ : BufTy).Contents (Elt Ideal)) : val_main_v25 (F := Ideal) x y = G x y := by
  funext i
  obtain ⟨p, q, rfl⟩ : ∃ (p q : Fin 8192), i = ix2 p q := ⟨i 0, i 1, eq_ix2 i⟩
  rw [G_ix2]
  exact result_apply x y p q

end Cert.PairKernel.Ref

end
-- ==== Proof.lean ====
/-
  Equivalence, on the extended reals, of a tiled kernel and its array-level reference for the matrix
      K(p, q) = exp (−½ · max (|x_p|² + |y_q|² − 2 ⟨x_p, y_q⟩, 0)) + c · (⟨x_p, y_q⟩ + 1)³,      p, q < 8192,
  of two arrays `x`, `y` of 8192 rows of 256 numbers (`c` the binary32 number nearest 1/10).

  * `Proof/PairKernel.lean` states the result once, as a function `G` of the two arrays: entry `(p, q)` is a scalar law of the
    three inner products `⟨x_p, x_p⟩`, `⟨y_q, y_q⟩`, `⟨x_p, y_q⟩`.
  * `Proof/BlockEntry.lean`: the kernel's body, on a block of 1024 rows of `x` and a block of 1024 rows of `y`, stores at `(p, q)`
    that law of row `p` of the first and row `q` of the second — its matrix product into a zero accumulator is the inner
    product, its two lane sums recast and broadcast are the two squared norms, the rest is pointwise.
  * `Proof/BlockCover.lean`: the 8 × 8 grid's output blocks are the blocks of `G` and cover the result, so the kernel's result
    array is `G` of its arguments.
  * `Proof/RefEntry.lean`: the reference's operations, read one at a time at an index, give the same `G`; the only algebra is
    `0 + s = s` for the sums' zero start and commutativity of the product for the cube's grouping. No entry needs to be
    finite: every law used holds on all extended reals.

  The three frames are the programs' runs with the result forgotten; the idealization rewrote nothing, so its conjunct is
  trivially true; the two idealized runs end at the one function `G` of arguments that agree.
-/
import proofs.«145799_j65481071409204_1_alg».proof.Defs
import proofs.«145799_j65481071409204_1_alg».proof.Proof.Gen.Kernel
import proofs.«145799_j65481071409204_1_alg».proof.Proof.Gen.Kernel.Skeleton
import proofs.«145799_j65481071409204_1_alg».proof.Proof.Gen.Kernel.Launch
import proofs.«145799_j65481071409204_1_alg».proof.Proof.Gen.Kernel.Points
import proofs.«145799_j65481071409204_1_alg».proof.Proof.Gen.Kernel.Frame
import proofs.«145799_j65481071409204_1_alg».proof.Proof.Gen.KernelIdeal
import proofs.«145799_j65481071409204_1_alg».proof.Proof.Gen.KernelIdeal.Skeleton
import proofs.«145799_j65481071409204_1_alg».proof.Proof.Gen.KernelIdeal.Launch
import proofs.«145799_j65481071409204_1_alg».proof.Proof.Gen.KernelIdeal.Points
import proofs.«145799_j65481071409204_1_alg».proof.Proof.Gen.KernelIdeal.Frame
import proofs.«145799_j65481071409204_1_alg».proof.Proof.Gen.ReferenceIdeal
import proofs.«145799_j65481071409204_1_alg».proof.Proof.Gen.Pre_finite_inputs
import proofs.«145799_j65481071409204_1_alg».proof.Proof.Gen.KernelIdeal.Value
import proofs.«145799_j65481071409204_1_alg».proof.Proof.Gen.ReferenceIdeal.Run
import proofs.«145799_j65481071409204_1_alg».proof.Proof.Gen.ReferenceIdeal.Read
import proofs.«145799_j65481071409204_1_alg».proof.Proof.PairKernel
import proofs.«145799_j65481071409204_1_alg».proof.Proof.LibColumnLayout
import proofs.«145799_j65481071409204_1_alg».proof.Proof.BlockEntry
import proofs.«145799_j65481071409204_1_alg».proof.Proof.BlockCover
import proofs.«145799_j65481071409204_1_alg».proof.Proof.RefEntry
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- Both idealized runs end with the result array at `G` of the arguments, which agree. -/
theorem algebraic : Cert.algebraic_KernelIdeal_ReferenceIdeal := by
  intro m ρ m' ρ' _ hagree
  refine ⟨_, Cert.PairKernel.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v25_eq _ _).trans (Cert.PairKernel.Ref.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
